-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x10000 : Shape := ⟨2, ![128, 10000]⟩
abbrev S64x128x10000 : Shape := ⟨3, ![64, 128, 10000]⟩
abbrev S_ : Shape := ⟨0, ![]⟩

class Facts : Prop where
  bcast_S_S128x10000 : S_.BroadcastsInDim S128x10000 (![] : Fin 0 → Fin S128x10000.rank)
  reducesTo_S128x10000_S_d0_1 : S128x10000.ReducesTo [0, 1] S_
  h_S_ : 0 < S_.numel
  bcast_S_S64x128x10000 : S_.BroadcastsInDim S64x128x10000 (![] : Fin 0 → Fin S64x128x10000.rank)
  reducesTo_S64x128x10000_S_d0_1_2 : S64x128x10000.ReducesTo [0, 1, 2] S_

variable [Facts]

def fn {F : FTy → Type} [FloatOps F] (main_arg0 : FVec F S128x10000 .f32) (main_arg1 : FVec F S128x10000 .f32) (main_arg2 : FVec F S64x128x10000 .f32) : IVec S_ 1 :=
  let main_v0 : FVec F S128x10000 .f32 := Host.absf main_arg0
  let main_cst : FVec F S_ .f32 := constant S_ .f32 0x7F800000#32
  let main_v1 : FVec F S128x10000 .f32 := broadcastInDim S128x10000 ![] bcast_S_S128x10000 main_cst
  let main_v2 : IVec S128x10000 1 := cmpf .olt main_v0 main_v1
  let main_c : IVec S_ 1 := constantI S_ 1 1#1
  let main_v3 : IVec S_ 1 := (fun x v => Host.reduce IntOp.andi x v reducesTo_S128x10000_S_d0_1 h_S_) main_v2 main_c
  let main_v4 : FVec F S128x10000 .f32 := Host.absf main_arg1
  let main_cst_0 : FVec F S_ .f32 := constant S_ .f32 0x7F800000#32
  let main_v5 : FVec F S128x10000 .f32 := broadcastInDim S128x10000 ![] bcast_S_S128x10000 main_cst_0
  let main_v6 : IVec S128x10000 1 := cmpf .olt main_v4 main_v5
  let main_c_1 : IVec S_ 1 := constantI S_ 1 1#1
  let main_v7 : IVec S_ 1 := (fun x v => Host.reduce IntOp.andi x v reducesTo_S128x10000_S_d0_1 h_S_) main_v6 main_c_1
  let main_v8 : IVec S_ 1 := andi main_v3 main_v7
  let main_v9 : FVec F S64x128x10000 .f32 := Host.absf main_arg2
  let main_cst_2 : FVec F S_ .f32 := constant S_ .f32 0x7F800000#32
  let main_v10 : FVec F S64x128x10000 .f32 := broadcastInDim S64x128x10000 ![] bcast_S_S64x128x10000 main_cst_2
  let main_v11 : IVec S64x128x10000 1 := cmpf .olt main_v9 main_v10
  let main_c_3 : IVec S_ 1 := constantI S_ 1 1#1
  let main_v12 : IVec S_ 1 := (fun x v => Host.reduce IntOp.andi x v reducesTo_S64x128x10000_S_d0_1_2 h_S_) main_v11 main_c_3
  let main_v13 : IVec S_ 1 := andi main_v8 main_v12
  main_v13
-- ==== Kernel.lean ====
abbrev S128x10000 : Shape := ⟨2, ![128, 10000]⟩
abbrev S64x128x10000 : Shape := ⟨3, ![64, 128, 10000]⟩
abbrev S2x1x1 : Shape := ⟨3, ![2, 1, 1]⟩
abbrev S1x128x10000 : Shape := ⟨3, ![1, 128, 10000]⟩
abbrev S1x1x1 : Shape := ⟨3, ![1, 1, 1]⟩
abbrev S1x1 : Shape := ⟨2, ![1, 1]⟩
abbrev S128 : Shape := ⟨1, ![128]⟩
abbrev S128x1 : Shape := ⟨2, ![128, 1]⟩
abbrev S1 : Shape := ⟨1, ![1]⟩
abbrev S_ : Shape := ⟨0, ![]⟩

abbrev nBuf : Space → Nat
  | .hbm => 8
  | .vmem => 7
  | .smem => 0
  | _ => 0

abbrev bufTy : (tb : Table) → Fin (tcTables nBuf tb) → BufTy
  | .hbm, ⟨0, _⟩ => ⟨S128x10000, .f32⟩
  | .hbm, ⟨1, _⟩ => ⟨S128x10000, .f32⟩
  | .hbm, ⟨2, _⟩ => ⟨S64x128x10000, .f32⟩
  | .hbm, ⟨3, _⟩ => ⟨S2x1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S1x128x10000, .f32⟩
  | .local _ .vmem, ⟨1, _⟩ => ⟨S1x128x10000, .f32⟩
  | .local _ .vmem, ⟨2, _⟩ => ⟨S128x10000, .f32⟩
  | .local _ .vmem, ⟨3, _⟩ => ⟨S128x10000, .f32⟩
  | .local _ .vmem, ⟨4, _⟩ => ⟨S1x1x1, .f32⟩
  | .local _ .vmem, ⟨5, _⟩ => ⟨S1x1x1, .f32⟩
  | .local _ .vmem, ⟨6, _⟩ => ⟨S1x1, .f32⟩
  | _, _ => ⟨S128x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v32 : BitVec 1 := Scalar.cmpi .eq arg1 c31_i32
  let v33 : BitVec 32 := Scalar.extui v32
  let c0_i32_16 : BitVec 32 := 0#32
  let v34 : BitVec 1 := Scalar.cmpi .ne v33 c0_i32_16
  v34

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x10000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x10000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S128x10000_S128x10000_0_0 : ∀ a, (![0, 0] : Fin 2 → Nat) a + S128x10000.size a ≤ S128x10000.size a
  h_S128x10000 : 0 < S128x10000.numel
  inb_S1x128x10000_S1x128x10000_0_0_0 : ∀ a, (![0, 0, 0] : Fin 3 → Nat) a + S1x128x10000.size a ≤ S1x128x10000.size a
  h_S1x128x10000 : 0 < S1x128x10000.numel
  shapeCasts_S1x128x10000_S128x10000 : S1x128x10000.ShapeCasts S128x10000
  reduces_S128x10000_S128 : S128x10000.Reduces [1] S128
  shapeCasts_S128_S128x1 : S128.ShapeCasts S128x1
  broadcasts_S128x1_S128x10000 : S128x1.Broadcasts S128x10000
  reduces_S128x1_S1 : S128x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x10000.size a ≤ S64x128x10000.size a
  hwx0_0 : ∀ i : grid0.Coords, EltTy.bits .f32 = 32 ∨ (Rect.block (s := S64x128x10000) S1x128x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x10000.size a ≤ S128x10000.size a
  hwx0_1 : ∀ i : grid0.Coords, EltTy.bits .f32 = 32 ∨ (Rect.block (s := S128x10000) S128x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x10000.size a ≤ S128x10000.size a
  hwx0_2 : ∀ i : grid0.Coords, EltTy.bits .f32 = 32 ∨ (Rect.block (s := S128x10000) S128x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

abbrev win0_0 : Pipeline.Window sig grid0 :=
  Pipeline.Window.ofSpec (Memref.whole main_arg2) S1x128x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S128x10000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x10000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S128x10000 : Shape := ⟨2, ![128, 10000]⟩
abbrev S64x128x10000 : Shape := ⟨3, ![64, 128, 10000]⟩
abbrev S1x128x10000 : Shape := ⟨3, ![1, 128, 10000]⟩
abbrev S_ : Shape := ⟨0, ![]⟩
abbrev S64x128 : Shape := ⟨2, ![64, 128]⟩
abbrev S64x128x1 : Shape := ⟨3, ![64, 128, 1]⟩

abbrev nBuf : Space → Nat
  | .hbm => 36
  | .vmem => 0
  | .smem => 0
  | _ => 0

abbrev bufTy : (tb : Table) → Fin (tcTables nBuf tb) → BufTy
  | .hbm, ⟨0, _⟩ => ⟨S128x10000, .f32⟩
  | .hbm, ⟨1, _⟩ => ⟨S128x10000, .f32⟩
  | .hbm, ⟨2, _⟩ => ⟨S64x128x10000, .f32⟩
  | .hbm, ⟨3, _⟩ => ⟨S1x128x10000, .f32⟩
  | .hbm, ⟨4, _⟩ => ⟨S_, .f32⟩
  | .hbm, ⟨5, _⟩ => ⟨S64x128x10000, .f32⟩
  | .hbm, ⟨6, _⟩ => ⟨S64x128x10000, .f32⟩
  | .hbm, ⟨7, _⟩ => ⟨S64x128x10000, .f32⟩
  | .hbm, ⟨8, _⟩ => ⟨S64x128x10000, .f32⟩
  | .hbm, ⟨9, _⟩ => ⟨S_, .f32⟩
  | .hbm, ⟨10, _⟩ => ⟨S64x128, .f32⟩
  | .hbm, ⟨11, _⟩ => ⟨S_, .f32⟩
  | .hbm, ⟨12, _⟩ => ⟨S64x128, .f32⟩
  | .hbm, ⟨13, _⟩ => ⟨S64x128, .f32⟩
  | .hbm, ⟨14, _⟩ => ⟨S64x128x1, .f32⟩
  | .hbm, ⟨15, _⟩ => ⟨S64x128x10000, .f32⟩
  | .hbm, ⟨16, _⟩ => ⟨S64x128x10000, .f32⟩
  | .hbm, ⟨17, _⟩ => ⟨S64x128x10000, .f32⟩
  | .hbm, ⟨18, _⟩ => ⟨S_, .f32⟩
  | .hbm, ⟨19, _⟩ => ⟨S64x128, .f32⟩
  | .hbm, ⟨20, _⟩ => ⟨S64x128x1, .f32⟩
  | .hbm, ⟨21, _⟩ => ⟨S64x128x10000, .f32⟩
  | .hbm, ⟨22, _⟩ => ⟨S64x128x10000, .f32⟩
  | .hbm, ⟨23, _⟩ => ⟨S1x128x10000, .f32⟩
  | .hbm, ⟨24, _⟩ => ⟨S64x128x10000, .f32⟩
  | .hbm, ⟨25, _⟩ => ⟨S64x128x10000, .f32⟩
  | .hbm, ⟨26, _⟩ => ⟨S64x128x10000, .f32⟩
  | .hbm, ⟨27, _⟩ => ⟨S_, .f32⟩
  | .hbm, ⟨28, _⟩ => ⟨S64x128, .f32⟩
  | .hbm, ⟨29, _⟩ => ⟨S_, .f32⟩
  | .hbm, ⟨30, _⟩ => ⟨S64x128, .f32⟩
  | .hbm, ⟨31, _⟩ => ⟨S64x128, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S128x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  bcast_S128x10000_S1x128x10000_1_2 : S128x10000.BroadcastsInDim S1x128x10000 (![1, 2] : Fin 2 → Fin S1x128x10000.rank)
  bcast_S_S64x128x10000 : S_.BroadcastsInDim S64x128x10000 (![] : Fin 0 → Fin S64x128x10000.rank)
  bcast_S1x128x10000_S64x128x10000_0_1_2 : S1x128x10000.BroadcastsInDim S64x128x10000 (![0, 1, 2] : Fin 3 → Fin S64x128x10000.rank)
  reducesTo_S64x128x10000_S64x128_d2 : S64x128x10000.ReducesTo [2] S64x128
  h_S_ : 0 < S_.numel
  bcast_S_S64x128 : S_.BroadcastsInDim S64x128 (![] : Fin 0 → Fin S64x128.rank)
  bcast_S64x128_S64x128x1_0_1 : S64x128.BroadcastsInDim S64x128x1 (![0, 1] : Fin 2 → Fin S64x128x1.rank)
  bcast_S64x128x1_S64x128x10000_0_1_2 : S64x128x1.BroadcastsInDim S64x128x10000 (![0, 1, 2] : Fin 3 → Fin S64x128x10000.rank)
  reducesTo_S64x128_S_d0_1 : S64x128.ReducesTo [0, 1] S_

variable [Facts₀]

class Facts : Prop extends Facts₀ where

variable [Facts]
-- ==== Proof.Consts.lean ====
/-
  The float literals whose values matter: the kernel scales the total by the word for 2^-13 where the reference divides
  by the word for 8192, and both row maxima start from the word for -infinity. Each is read here once, as the extended
  real it denotes.
-/
import Idealize.ShloMosaic.PureOps.Ideal

noncomputable section

namespace Cert.Consts

open Idealize.ShloMosaic

/-- `0x39000000` is 2^-13 = 1/8192. -/
theorem ofBits_inv8192 : Ideal.ofBits .f32 0x39000000#32 = ((1 / 8192 : ℝ) : EReal) := by
  simp [Ideal.ofBits, Ideal.ieee, -EReal.coe_mul]; norm_num

/-- `0x46000000` is 8192. -/
theorem ofBits_8192 : Ideal.ofBits .f32 0x46000000#32 = ((8192 : ℝ) : EReal) := by
  simp [Ideal.ofBits, Ideal.ieee, -EReal.coe_mul]; norm_num

/-- `0xFF800000` is -infinity, the bottom of the extended reals. -/
theorem ofBits_negInf : Ideal.ofBits .f32 0xFF800000#32 = ⊥ := by
  simp [Ideal.ofBits, Ideal.ieee]

/-- Scaling by 2^-13 is dividing by 8192, on every extended real. -/
theorem mul_inv8192_eq_div (x : EReal) :
    x * Ideal.ofBits .f32 0x39000000#32 = Ideal.div x (Ideal.ofBits .f32 0x46000000#32) := by
  rw [ofBits_inv8192, ofBits_8192, Ideal.div_coe (by norm_num : (8192 : ℝ) ≠ 0)]

end Cert.Consts

end
-- ==== Proof.Pieces.lean ====
/-
  What one grid point leaves behind. The kernel's body at a point of the 2 x 32 grid loads the three blocks
  (one noise slab, theta, y) and the one-entry accumulator, and stores the accumulator back; at a core's last point it
  also copies the accumulator into the core's output block. Each of these stores covers its buffer, so the contents
  after the body are the stored values themselves, as functions of the loaded blocks.
-/
import proofs.«111497_j80590766342735_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At an interior point of a core's run the accumulator ends at the point's one store: the running value plus the
    slab's loss, as a function of the three blocks and of what the point before left. -/
theorem sout_B (c : Dev nD) (i : grid0.Coords) (a2 : Memref sig .tc .vmem S1x128x10000 .f32) (h2 : a2.IsWhole)
    (a3 : Memref sig .tc .vmem S128x10000 .f32) (h3 : a3.IsWhole) (a4 : Memref sig .tc .vmem S128x10000 .f32) (h4 : a4.IsWhole)
    (a5 : Memref sig .tc .vmem S1x1x1 .f32) (h5 : a5.IsWhole) (a6 : Memref sig .tc .vmem S1x1 .f32) (h6 : a6.IsWhole)
    (hc0 : ¬cond0_0 i) (hc1 : ¬cond0_1 i)
    (x0 : Vec F S1x128x10000 .f32) (x1 x2 : Vec F S128x10000 .f32) (xs0 : Vec F S1x1 .f32) :
    sout0_B_0 c i a2 h2 a3 h3 a4 h4 a5 h5 a6 h6 hc0 hc1 x0 x1 x2 xs0 = k0_pay3 x1 x2 x0 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  sl_unfold_words
  rw [View.canon_unit_zero hz2]
  simp only [View.readAt_eq_ld, h2.read_unread, h3.read_unread, h4.read_unread, h6.read_unread,
    View.ld_unit_zero (S := S128x10000) hz2, View.ld_unit_zero (S := S1x1) hz2, View.ld_unit_zero (S := S1x128x10000) hz3]

/-- At a core's last point the accumulator ends at the same store. -/
theorem sout_C (c : Dev nD) (i : grid0.Coords) (a2 : Memref sig .tc .vmem S1x128x10000 .f32) (h2 : a2.IsWhole)
    (a3 : Memref sig .tc .vmem S128x10000 .f32) (h3 : a3.IsWhole) (a4 : Memref sig .tc .vmem S128x10000 .f32) (h4 : a4.IsWhole)
    (a5 : Memref sig .tc .vmem S1x1x1 .f32) (h5 : a5.IsWhole) (a6 : Memref sig .tc .vmem S1x1 .f32) (h6 : a6.IsWhole)
    (hc0 : ¬cond0_0 i) (hc1 : cond0_1 i)
    (x0 : Vec F S1x128x10000 .f32) (x1 x2 : Vec F S128x10000 .f32) (xs0 : Vec F S1x1 .f32) :
    sout0_C_0 c i a2 h2 a3 h3 a4 h4 a5 h5 a6 h6 hc0 hc1 x0 x1 x2 xs0 = k0_pay3 x1 x2 x0 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero hz2]
  simp only [View.readAt_eq_ld, h2.read_unread, h3.read_unread, h4.read_unread, h6.read_unread,
    View.ld_unit_zero (S := S128x10000) hz2, View.ld_unit_zero (S := S1x1) hz2, View.ld_unit_zero (S := S1x128x10000) hz3]

/-- At a core's last point the output block is the accumulator just stored, re-laid as [1, 1, 1]. -/
theorem out_C (c : Dev nD) (i : grid0.Coords) (a2 : Memref sig .tc .vmem S1x128x10000 .f32) (h2 : a2.IsWhole)
    (a3 : Memref sig .tc .vmem S128x10000 .f32) (h3 : a3.IsWhole) (a4 : Memref sig .tc .vmem S128x10000 .f32) (h4 : a4.IsWhole)
    (a5 : Memref sig .tc .vmem S1x1x1 .f32) (h5 : a5.IsWhole) (a6 : Memref sig .tc .vmem S1x1 .f32) (h6 : a6.IsWhole)
    (hc0 : ¬cond0_0 i) (hc1 : cond0_1 i)
    (x0 : Vec F S1x128x10000 .f32) (x1 x2 : Vec F S128x10000 .f32) (xs0 : Vec F S1x1 .f32) :
    out0_C_3 c i a2 h2 a3 h3 a4 h4 a5 h5 a6 h6 hc0 hc1 x0 x1 x2 xs0 = k0_pay1 (k0_pay3 x1 x2 x0 xs0) := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero hz3, View.readCov_unit_zero (S := S1x1) _ hz2]
  simp only [View.readAt_eq_ld, h2.read_unread, h3.read_unread, h4.read_unread, h6.read_unread,
    View.ld_unit_zero (S := S128x10000) hz2, View.ld_unit_zero (S := S1x1) hz2, View.ld_unit_zero (S := S1x128x10000) hz3]

/-- At a core's first point the accumulator is first set to the zero block, and ends at that zero plus the slab's loss. -/
theorem sout_A (c : Dev nD) (i : grid0.Coords) (a2 : Memref sig .tc .vmem S1x128x10000 .f32) (h2 : a2.IsWhole)
    (a3 : Memref sig .tc .vmem S128x10000 .f32) (h3 : a3.IsWhole) (a4 : Memref sig .tc .vmem S128x10000 .f32) (h4 : a4.IsWhole)
    (a5 : Memref sig .tc .vmem S1x1x1 .f32) (h5 : a5.IsWhole) (a6 : Memref sig .tc .vmem S1x1 .f32) (h6 : a6.IsWhole)
    (hc0 : cond0_0 i) (hc1 : ¬cond0_1 i)
    (x0 : Vec F S1x128x10000 .f32) (x1 x2 : Vec F S128x10000 .f32) :
    sout0_A_0 c i a2 h2 a3 h3 a4 h4 a5 h5 a6 h6 hc0 hc1 x0 x1 x2 = k0_pay3 x1 x2 x0 (k0_pay2 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1x1) hz2, View.readCov_unit_zero (S := S1x1) _ hz2]
  simp only [View.readAt_eq_ld, h2.read_unread, h3.read_unread, h4.read_unread, h6.read_unread,
    View.ld_unit_zero (S := S128x10000) hz2, View.ld_unit_zero (S := S1x1) hz2, View.ld_unit_zero (S := S1x128x10000) hz3]

end Cert.KernelIdeal.Pieces

end
-- ==== Proof.Spec.lean ====
/-
  The common value of the two programs, on extended reals.

  One row (one sample s, one batch entry b; d ranges over the 10000 features):
    eta d   = theta d + 1 * noise d
    mx      = max over d of eta d, starting from -infinity
    e d     = exp (eta d - mx)
    p d     = e d / (sum over k of e k)                      (the softmax)
    rowLoss = (sum over d of (p d - y d)^2) / 10000          (the mean squared error of the row)

  The kernel adds the row losses of one noise slab over the 128 batch entries, and keeps a running sum of these slab
  totals over a core's 32 grid points, restarting from zero at the core's first point; the two cores' sums are added
  and scaled by 2^-13. The reference adds all 64 x 128 row losses and divides by 8192. Addition of extended reals is
  commutative and associative, so the two groupings agree: no finiteness is used.
-/
import Idealize.ShloMosaic.PureOps.Ideal
import Idealize.ShloMosaic.Lib.ValueIdx

noncomputable section

namespace Cert.Spec

open Idealize.ShloMosaic

/-- The perturbed logits of one row. The factor is the literal 1.0, kept as its word: both programs multiply by it. -/
def eta (θ ν : Fin 10000 → EReal) (d : Fin 10000) : EReal := θ d + Ideal.ofBits .f32 0x3F800000#32 * ν d

/-- The row's maximum, folded from -infinity. -/
def rowMax (θ ν : Fin 10000 → EReal) : EReal :=
  (Finset.univ : Finset (Fin 10000)).fold max (Ideal.ofBits .f32 0xFF800000#32) (eta θ ν)

/-- The shifted exponentials. -/
def ex (θ ν : Fin 10000 → EReal) (d : Fin 10000) : EReal := Ideal.exp (eta θ ν d - rowMax θ ν)

/-- The softmax of the row. -/
def prob (θ ν : Fin 10000 → EReal) (d : Fin 10000) : EReal := Ideal.div (ex θ ν d) (∑ k : Fin 10000, ex θ ν k)

/-- The squared error against y. -/
def sqErr (θ y ν : Fin 10000 → EReal) (d : Fin 10000) : EReal := (prob θ ν d - y d) * (prob θ ν d - y d)

/-- The row's mean squared error: the sum over the features divided by the literal 10000.0. -/
def rowLoss (θ y ν : Fin 10000 → EReal) : EReal :=
  Ideal.div (∑ d : Fin 10000, sqErr θ y ν d) (Ideal.ofBits .f32 0x461C4000#32)

/-- The loss of noise slab `n`: the row losses of the slab added over the 128 batch entries (zero past the 64 slabs, where
    nothing is read). -/
def slabLoss (θ y : (⟨2, ![128, 10000]⟩ : Shape).Idx → EReal) (ν : (⟨3, ![64, 128, 10000]⟩ : Shape).Idx → EReal) (n : ℕ) : EReal :=
  if h : n < 64 then
    ∑ b : Fin 128, rowLoss (fun d => θ (ValueIdx.ix2 b d)) (fun d => y (ValueIdx.ix2 b d))
      (fun d => ν (ValueIdx.ix3 (⟨n, h⟩ : Fin 64) b d))
  else 0

/-- All 64 slab losses, added: the sum over samples and batch entries of the row losses. -/
theorem sum_slabs (θ y : (⟨2, ![128, 10000]⟩ : Shape).Idx → EReal) (ν : (⟨3, ![64, 128, 10000]⟩ : Shape).Idx → EReal) :
    ∑ n ∈ Finset.range 64, slabLoss θ y ν n
      = ∑ s : Fin 64, ∑ b : Fin 128, rowLoss (fun d => θ (ValueIdx.ix2 b d)) (fun d => y (ValueIdx.ix2 b d))
          (fun d => ν (ValueIdx.ix3 s b d)) := by
  rw [← Fin.sum_univ_eq_sum_range]
  refine Finset.sum_congr rfl fun s _ => ?_
  unfold slabLoss
  rw [dif_pos s.isLt]

/-! ## The running sum with a restart every 32 points -/

/-- The accumulator after point `n`: at a multiple of 32 it restarts from zero. -/
def accN (B : ℕ → EReal) : ℕ → EReal
  | 0 => 0 + B 0
  | n + 1 => if (n + 1) % 32 = 0 then 0 + B (n + 1) else accN B n + B (n + 1)

theorem accN_zero (B : ℕ → EReal) : accN B 0 = 0 + B 0 := rfl

theorem accN_reset (B : ℕ → EReal) (n : ℕ) (h : (n + 1) % 32 = 0) : accN B (n + 1) = 0 + B (n + 1) := by
  rw [accN, if_pos h]

theorem accN_step (B : ℕ → EReal) (n : ℕ) (h : ¬(n + 1) % 32 = 0) : accN B (n + 1) = accN B n + B (n + 1) := by
  rw [accN, if_neg h]

/-- Within a run of 32 points the accumulator is the plain sum of the terms since the restart. -/
theorem accN_closed (B : ℕ → EReal) (q : ℕ) : ∀ s : ℕ, s < 32 →
    accN B (32 * q + s) = ∑ k ∈ Finset.range (s + 1), B (32 * q + k)
  | 0, _ => by
    rw [Finset.sum_range_one]
    cases q with
    | zero => rw [accN_zero, zero_add]
    | succ q =>
      rw [show 32 * (q + 1) + 0 = (32 * q + 31) + 1 by omega, accN_reset B _ (by omega), zero_add]
  | s + 1, hs => by
    rw [show 32 * q + (s + 1) = (32 * q + s) + 1 by omega, accN_step B _ (by omega),
      accN_closed B q s (by omega), Finset.sum_range_succ (fun k => B (32 * q + k)) (s + 1)]
    rfl

/-- The two cores' totals, added from zero, are the sum over all 64 points. -/
theorem two_cores (B : ℕ → EReal) :
    0 + (accN B (32 * 0 + 31) + accN B (32 * 1 + 31)) = ∑ n ∈ Finset.range 64, B n := by
  have h64 : ∑ n ∈ Finset.range 64, B n = (∑ k ∈ Finset.range 32, B k) + ∑ k ∈ Finset.range 32, B (32 + k) :=
    Finset.sum_range_add B 32 32
  rw [accN_closed B 0 31 (by omega), accN_closed B 1 31 (by omega), zero_add, h64]
  simp only [Nat.mul_zero, Nat.zero_add, Nat.mul_one]

end Cert.Spec

end
-- ==== Proof.LibColumn.lean ====
/-
  Column arrays.
  * A vector of length a made an [a, 1] matrix by a shape cast: entry (i, 0) is entry i of the vector.
  * An [a, 1] column repeated along b columns by a broadcast: entry (p, c) is the column's entry (p, 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.RowRead.lean ====
/-
  The body's arithmetic, read entry by entry at the exact instance.

  The body works on whole [128, 10000] vectors. Written with the vector operations it uses, the accumulator it stores is
      acc + (sum over b of rowMean b),
  where rowMean is the [128, 1] column of row losses: every reduction runs along a row, every column is re-laid by a
  shape cast and repeated along the row by a broadcast, so entry (b, d) of each intermediate depends only on row b of
  theta, of y and of the noise slab. Read at (b, d), each intermediate is the corresponding quantity of Spec for that row.
-/
import proofs.«111497_j80590766342735_2_alg».proof.Proof.Gen.KernelIdeal.Skeleton
import proofs.«111497_j80590766342735_2_alg».proof.Proof.Spec
import proofs.«111497_j80590766342735_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowRead

open Cert.KernelIdeal Cert.KernelIdeal.Gen Idealize.ShloMosaic Idealize.ShloMosaic.ValueIdx Cert.Spec

/-- Row `b` of a [128, 10000] block. -/
abbrev row (x : S128x10000.Idx → EReal) (b : Fin 128) : Fin 10000 → EReal := fun d => x (ix2 b d)

/-- Row `b` of the one slab of a [1, 128, 10000] block. -/
abbrev row3 (x : S1x128x10000.Idx → EReal) (b : Fin 128) : Fin 10000 → EReal := fun d => x (ix3 (0 : Fin 1) b d)

/-! ## Indices put back by a reduction -/

/-- Reducing a [128, 10000] array along its rows: the reduced index `b` with the coordinate `d` put back is `(b, d)`. -/
theorem lift_row (h : S128x10000.Reduces [1] S128) (b : Fin 128) (d : Fin (S128x10000.size 1)) :
    h.lift (ix1 b) d = ix2 b (⟨d.val, d.isLt⟩ : Fin 10000) := by
  funext c; apply Fin.ext
  fin_cases c <;> rfl

/-- Reducing a [128, 1] column along its one column: the index `0` with the coordinate `b` put back is `(b, 0)`. -/
theorem lift_col (h : S128x1.Reduces [0] S1) (u : Fin 1) (b : Fin (S128x1.size 0)) :
    h.lift (ix1 u) b = ix2 (⟨b.val, b.isLt⟩ : Fin 128) (0 : Fin 1) := by
  funext c; apply Fin.ext
  fin_cases c
  · rfl
  · show (h.lift (ix1 u) b 1).val = 0
    have := (h.lift (ix1 u) b 1).isLt
    have h1 : S128x1.size 1 = 1 := rfl
    omega

/-- A sum along the rows, at row `b`. -/
theorem rowSum_apply (x : FVec Ideal S128x10000 .f32) (b : Fin 128) :
    multiReduction .add [1] S128 x 0x00000000#32 reduces_S128x10000_S128 (.inl rfl) rfl (ix1 b)
      = ∑ d : Fin 10000, x (ix2 b d) :=
  (Ideal.multiReduction_add_single x 0x00000000#32 reduces_S128x10000_S128 (.inl rfl) rfl (ix1 b)).trans
    (Finset.sum_congr rfl fun d _ => congrArg x (lift_row reduces_S128x10000_S128 b d))

/-- A maximum along the rows, at row `b`: the fold of `max` from -infinity over the row. -/
theorem rowMax_apply (x : FVec Ideal S128x10000 .f32) (b : Fin 128) :
    multiReduction .maximumf [1] S128 x 0xFF800000#32 reduces_S128x10000_S128 (.inl rfl) rfl (ix1 b)
      = (Finset.univ : Finset (Fin 10000)).fold max (Ideal.ofBits .f32 0xFF800000#32) (fun d => x (ix2 b d)) :=
  (Ideal.multiReduction_maximumf_single x 0xFF800000#32 reduces_S128x10000_S128 (.inl rfl) rfl (ix1 b)).trans
    (congrArg (fun f => (Finset.univ : Finset (Fin 10000)).fold max (Ideal.ofBits .f32 0xFF800000#32) f)
      (funext fun d => congrArg x (lift_row reduces_S128x10000_S128 b d)))

/-! ## The body's vectors -/

/-- A per-row value made a column and repeated along the row. -/
def colBcast (v : FVec Ideal S128 .f32) : FVec Ideal S128x10000 .f32 :=
  broadcastTo S128x10000 (shapeCast S128x1 v shapeCasts_S128_S128x1) broadcasts_S128x1_S128x10000

theorem colBcast_apply (v : FVec Ideal S128 .f32) (b : Fin 128) (d : Fin 10000) : colBcast v (ix2 b d) = v (ix1 b) :=
  (Cert.LibColumn.broadcastTo_a1_ab_apply _ broadcasts_S128x1_S128x10000 b d).trans
    (Cert.LibColumn.shapeCast_a_a1_apply v shapeCasts_S128_S128x1 b 0)

/-- theta + 1 * noise. -/
def etaV (θ : Vec Ideal S128x10000 .f32) (ν : Vec Ideal S1x128x10000 .f32) : FVec Ideal S128x10000 .f32 :=
  addf θ (mulf (broadcast S128x10000 (Scalar.ofBits .f32 0x3F800000#32))
    (shapeCast S128x10000 ν shapeCasts_S1x128x10000_S128x10000))

theorem etaV_apply (θ : Vec Ideal S128x10000 .f32) (ν : Vec Ideal S1x128x10000 .f32) (b : Fin 128) (d : Fin 10000) :
    etaV θ ν (ix2 b d) = eta (row θ b) (row3 ν b) d := by
  show θ (ix2 b d) + Ideal.ofBits .f32 0x3F800000#32 * shapeCast S128x10000 ν shapeCasts_S1x128x10000_S128x10000 (ix2 b d) = _
  rw [ValueIdx.shapeCast_1ab_ab_apply]
  rfl

/-- The row maxima. -/
def maxV (θ : Vec Ideal S128x10000 .f32) (ν : Vec Ideal S1x128x10000 .f32) : FVec Ideal S128 .f32 :=
  multiReduction .maximumf [1] S128 (etaV θ ν) 0xFF800000#32 reduces_S128x10000_S128 (.inl rfl) rfl

theorem maxV_apply (θ : Vec Ideal S128x10000 .f32) (ν : Vec Ideal S1x128x10000 .f32) (b : Fin 128) :
    maxV θ ν (ix1 b) = rowMax (row θ b) (row3 ν b) := by
  unfold maxV rowMax
  rw [rowMax_apply]
  exact congrArg (fun f => (Finset.univ : Finset (Fin 10000)).fold max (Ideal.ofBits .f32 0xFF800000#32) f)
    (funext fun d => etaV_apply θ ν b d)

/-- The shifted exponentials. -/
def exV (θ : Vec Ideal S128x10000 .f32) (ν : Vec Ideal S1x128x10000 .f32) : FVec Ideal S128x10000 .f32 :=
  exp (subf (etaV θ ν) (colBcast (maxV θ ν)))

theorem exV_apply (θ : Vec Ideal S128x10000 .f32) (ν : Vec Ideal S1x128x10000 .f32) (b : Fin 128) (d : Fin 10000) :
    exV θ ν (ix2 b d) = ex (row θ b) (row3 ν b) d := by
  show Ideal.exp (etaV θ ν (ix2 b d) - colBcast (maxV θ ν) (ix2 b d)) = _
  rw [etaV_apply, colBcast_apply, maxV_apply]
  rfl

/-- The softmax. -/
def probV (θ : Vec Ideal S128x10000 .f32) (ν : Vec Ideal S1x128x10000 .f32) : FVec Ideal S128x10000 .f32 :=
  divf (exV θ ν)
    (colBcast (multiReduction .add [1] S128 (exV θ ν) 0x00000000#32 reduces_S128x10000_S128 (.inl rfl) rfl))

theorem probV_apply (θ : Vec Ideal S128x10000 .f32) (ν : Vec Ideal S1x128x10000 .f32) (b : Fin 128) (d : Fin 10000) :
    probV θ ν (ix2 b d) = prob (row θ b) (row3 ν b) d := by
  show Ideal.div (exV θ ν (ix2 b d)) (colBcast _ (ix2 b d)) = _
  rw [exV_apply, colBcast_apply, rowSum_apply]
  simp only [exV_apply]
  rfl

/-- The squared errors. -/
def sqV (θ y : Vec Ideal S128x10000 .f32) (ν : Vec Ideal S1x128x10000 .f32) : FVec Ideal S128x10000 .f32 :=
  mulf (subf (probV θ ν) y) (subf (probV θ ν) y)

theorem sqV_apply (θ y : Vec Ideal S128x10000 .f32) (ν : Vec Ideal S1x128x10000 .f32) (b : Fin 128) (d : Fin 10000) :
    sqV θ y ν (ix2 b d) = sqErr (row θ b) (row y b) (row3 ν b) d := by
  show (probV θ ν (ix2 b d) - y (ix2 b d)) * (probV θ ν (ix2 b d) - y (ix2 b d)) = _
  rw [probV_apply]
  rfl

/-- The column of row losses. -/
def meanV (θ y : Vec Ideal S128x10000 .f32) (ν : Vec Ideal S1x128x10000 .f32) : FVec Ideal S128x1 .f32 :=
  divf (shapeCast S128x1 (multiReduction .add [1] S128 (sqV θ y ν) 0x00000000#32 reduces_S128x10000_S128 (.inl rfl) rfl)
      shapeCasts_S128_S128x1)
    (broadcast S128x1 (Scalar.ofBits .f32 0x461C4000#32))

theorem meanV_apply (θ y : Vec Ideal S128x10000 .f32) (ν : Vec Ideal S1x128x10000 .f32) (b : Fin 128) :
    meanV θ y ν (ix2 b (0 : Fin 1)) = rowLoss (row θ b) (row y b) (row3 ν b) := by
  show Ideal.div (shapeCast S128x1 _ shapeCasts_S128_S128x1 (ix2 b (0 : Fin 1))) (Ideal.ofBits .f32 0x461C4000#32) = _
  rw [Cert.LibColumn.shapeCast_a_a1_apply, rowSum_apply]
  simp only [sqV_apply]
  rfl

/-- The slab's loss: the column added up, as a [1, 1] block. -/
def batchV (θ y : Vec Ideal S128x10000 .f32) (ν : Vec Ideal S1x128x10000 .f32) : FVec Ideal S1x1 .f32 :=
  shapeCast S1x1 (multiReduction .add [0] S1 (meanV θ y ν) 0x00000000#32 reduces_S128x1_S1 (.inl rfl) rfl)
    shapeCasts_S1_S1x1

theorem batchV_apply (θ y : Vec Ideal S128x10000 .f32) (ν : Vec Ideal S1x128x10000 .f32) :
    batchV θ y ν (ix2 (0 : Fin 1) (0 : Fin 1)) = ∑ b : Fin 128, rowLoss (row θ b) (row y b) (row3 ν b) := by
  unfold batchV
  rw [Cert.LibColumn.shapeCast_a_a1_apply]
  refine (Ideal.multiReduction_add_single (meanV θ y ν) 0x00000000#32 reduces_S128x1_S1 (.inl rfl) rfl (ix1 (0 : Fin 1))).trans ?_
  refine Finset.sum_congr rfl fun k _ => ?_
  rw [lift_col]
  exact meanV_apply θ y ν _

/-! ## The stored values -/

/-- The accumulator's store is the loaded accumulator plus the slab's loss. -/
theorem pay3_eq (θ y : Vec Ideal S128x10000 .f32) (ν : Vec Ideal S1x128x10000 .f32) (acc : Vec Ideal S1x1 .f32) :
    k0_pay3 θ y ν acc = shapeCast S1x1 (addf acc (batchV θ y ν)) shapeCasts_S1x1_S1x1 := rfl

theorem pay3_apply (θ y : Vec Ideal S128x10000 .f32) (ν : Vec Ideal S1x128x10000 .f32) (acc : Vec Ideal S1x1 .f32) :
    k0_pay3 θ y ν acc (ix2 (0 : Fin 1) (0 : Fin 1))
      = acc (ix2 (0 : Fin 1) (0 : Fin 1)) + ∑ b : Fin 128, rowLoss (row θ b) (row y b) (row3 ν b) := by
  rw [pay3_eq, shapeCast_self]
  show acc (ix2 (0 : Fin 1) (0 : Fin 1)) + batchV θ y ν (ix2 (0 : Fin 1) (0 : Fin 1)) = _
  rw [batchV_apply]

/-- The reset stores zero. -/
theorem pay2_apply : k0_pay2 (F := Ideal) (ix2 (0 : Fin 1) (0 : Fin 1)) = 0 := by
  unfold k0_pay2
  rw [shapeCast_self]
  exact Ideal.ofBits_zero_f32

/-- The output block is the accumulator's one entry, whatever the (unit) index. -/
theorem pay1_apply (v : Vec Ideal S1x1 .f32) (j : S1x1x1.Idx) : k0_pay1 v j = v (ix2 (0 : Fin 1) (0 : Fin 1)) := by
  unfold k0_pay1
  refine (shapeCast_addUnit_apply ![1, 1] v shapeCasts_S1x1_S1x1x1 j).trans (congrArg v ?_)
  funext a; apply Fin.ext
  fin_cases a
  · have := (j 1).isLt; have h1 : S1x1x1.size 1 = 1 := rfl; show (j 1).val = 0; omega
  · have := (j 2).isLt; have h1 : S1x1x1.size 2 = 1 := rfl; show (j 2).val = 0; omega

end Cert.KernelIdeal.RowRead

end
-- ==== Proof.KernelValue.lean ====
/-
  The accumulator, point by point.

  Grid point t = 32 c + s (core c, step s) reads noise slab number t, and the whole of theta and of y. So what the point
  adds to the accumulator is the loss of slab t (Spec.slabLoss), and the accumulator after point t is the running sum of
  Spec.accN: restarted at s = 0, continued otherwise. At a core's last point (s = 31) the output block is a copy of it.
-/
import proofs.«111497_j80590766342735_2_alg».proof.Proof.Gen.KernelIdeal.Frame
import proofs.«111497_j80590766342735_2_alg».proof.Proof.Pieces
import proofs.«111497_j80590766342735_2_alg».proof.Proof.RowRead
import proofs.«111497_j80590766342735_2_alg».proof.Proof.Spec

noncomputable section

open Idealize.ShloMosaic Idealize.ShloMosaic.TcCoe Idealize.SL.Sem
open Idealize.ShloMosaic.Pipeline (Dat)

namespace Cert.KernelIdeal.KVal

open Cert.KernelIdeal Cert.KernelIdeal.Gen Cert.KernelIdeal.Pieces Cert.KernelIdeal.RowRead Cert.Spec
open Idealize.ShloMosaic.ValueIdx

variable (m : (ℓ : Loc nD τ sig) → Buf (Elt Ideal) ℓ)

/-! ## The blocks the windows read -/

/-- The block index of the noise window at point t is (t, 0, 0); theta's and y's are (0, 0). -/
theorem idx_facts : ∀ t : Fin cfg0.N, win0_0.index t (0 : Fin 3) = t.val ∧ win0_0.index t (1 : Fin 3) = 0
    ∧ win0_0.index t (2 : Fin 3) = 0 ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- theta's block is theta. -/
theorem iblk_theta (c : Dev nD) (t : Fin cfg0.N) (b : Fin 128) (d : Fin 10000) :
    (iblk m c 1 t : Vec Ideal S128x10000 .f32) (ix2 b d) = m ((c : Thread nD τ).loc main_arg0) (ix2 b d) := by
  obtain ⟨-, -, -, e0, e1, -, -⟩ := idx_facts t
  unfold iblk
  rw [View.read_apply]
  show V m c main_arg0 _ = _
  rw [V_main_arg0]
  refine congrArg (m ((c : Thread nD τ).loc main_arg0)) ?_
  funext a; apply Fin.ext
  match a with
  | ⟨0, _⟩ => show win0_1.index t (0 : Fin 2) * 128 + 1 * b.val = b.val; omega
  | ⟨1, _⟩ => show win0_1.index t (1 : Fin 2) * 10000 + 1 * d.val = d.val; omega

/-- y's block is y. -/
theorem iblk_y (c : Dev nD) (t : Fin cfg0.N) (b : Fin 128) (d : Fin 10000) :
    (iblk m c 2 t : Vec Ideal S128x10000 .f32) (ix2 b d) = m ((c : Thread nD τ).loc main_arg1) (ix2 b d) := by
  obtain ⟨-, -, -, -, -, e0, e1⟩ := idx_facts t
  unfold iblk
  rw [View.read_apply]
  show V m c main_arg1 _ = _
  rw [V_main_arg1]
  refine congrArg (m ((c : Thread nD τ).loc main_arg1)) ?_
  funext a; apply Fin.ext
  match a with
  | ⟨0, _⟩ => show win0_2.index t (0 : Fin 2) * 128 + 1 * b.val = b.val; omega
  | ⟨1, _⟩ => show win0_2.index t (1 : Fin 2) * 10000 + 1 * d.val = d.val; omega

/-- The noise block at point t is slab t of the noise. -/
theorem iblk_noise (c : Dev nD) (t : Fin cfg0.N) (h64 : t.val < 64) (b : Fin 128) (d : Fin 10000) :
    (iblk m c 0 t : Vec Ideal S1x128x10000 .f32) (ix3 (0 : Fin 1) b d)
      = m ((c : Thread nD τ).loc main_arg2) (ix3 (⟨t.val, h64⟩ : Fin 64) b d) := by
  obtain ⟨e0, e1, e2, -, -, -, -⟩ := idx_facts t
  unfold iblk
  rw [View.read_apply]
  show V m c main_arg2 _ = _
  rw [V_main_arg2]
  refine congrArg (m ((c : Thread nD τ).loc main_arg2)) ?_
  funext a; apply Fin.ext
  match a with
  | ⟨0, _⟩ => show win0_0.index t (0 : Fin 3) * 1 + 1 * 0 = t.val; omega
  | ⟨1, _⟩ => show win0_0.index t (1 : Fin 3) * 128 + 1 * b.val = b.val; omega
  | ⟨2, _⟩ => show win0_0.index t (2 : Fin 3) * 10000 + 1 * d.val = d.val; omega

/-! ## What a point adds -/

/-- The slab losses of the run, as a function of the point's number. -/
abbrev B (c : Dev nD) : ℕ → EReal :=
  slabLoss (m ((c : Thread nD τ).loc main_arg0)) (m ((c : Thread nD τ).loc main_arg1)) (m ((c : Thread nD τ).loc main_arg2))

/-- The row losses of point t's blocks, added over the batch, are the loss of slab t. -/
theorem point_loss (c : Dev nD) (t : Fin cfg0.N) :
    ∑ b : Fin 128, rowLoss (row (iblk m c 1 t : Vec Ideal S128x10000 .f32) b) (row (iblk m c 2 t : Vec Ideal S128x10000 .f32) b)
        (row3 (iblk m c 0 t : Vec Ideal S1x128x10000 .f32) b) = B m c t.val := by
  have h64 : t.val < 64 := lt_of_lt_of_eq t.isLt (show cfg0.N = 64 from N_0)
  unfold B slabLoss
  rw [dif_pos h64]
  refine Finset.sum_congr rfl fun b _ => ?_
  have e1 : row (iblk m c 1 t : Vec Ideal S128x10000 .f32) b = fun d => m ((c : Thread nD τ).loc main_arg0) (ix2 b d) :=
    funext fun d => iblk_theta m c t b d
  have e2 : row (iblk m c 2 t : Vec Ideal S128x10000 .f32) b = fun d => m ((c : Thread nD τ).loc main_arg1) (ix2 b d) :=
    funext fun d => iblk_y m c t b d
  have e3 : row3 (iblk m c 0 t : Vec Ideal S1x128x10000 .f32) b
      = fun d => m ((c : Thread nD τ).loc main_arg2) (ix3 (⟨t.val, h64⟩ : Fin 64) b d) :=
    funext fun d => iblk_noise m c t h64 b d
  rw [e1, e2, e3]

/-! ## The accumulator after each point -/

/-- After point n the accumulator's one entry is the running sum of the slab losses since the core's first point. -/
theorem acc_eq (c : Dev nD) : ∀ (n : ℕ) (h : n < cfg0.N),
    (outsAt0 m c n h).2 (ix2 (0 : Fin 1) (0 : Fin 1)) = accN (B m c) n
  | 0, h => by
    rw [outsAt0_A m c ⟨0, h⟩ rfl (by show ¬(0 : ℕ) % 32 = 31; omega)]
    dsimp only
    rw [sout_A, pay3_apply, pay2_apply, point_loss]
    rfl
  | n + 1, h => by
    have ih := acc_eq c n (Nat.lt_of_succ_lt h)
    by_cases h0 : (n + 1) % 32 = 0
    · have h1 : ¬(n + 1) % 32 = 31 := by omega
      rw [outsAt0_A m c ⟨n + 1, h⟩ h0 h1]
      dsimp only
      rw [sout_A, pay3_apply, pay2_apply, point_loss, accN_reset _ _ h0]
    · by_cases h1 : (n + 1) % 32 = 31
      · rw [outsAt0_C m c ⟨n + 1, h⟩ h0 h1]
        dsimp only
        rw [sout_C, pay3_apply, point_loss, accN_step _ _ h0]
        exact congrArg (· + B m c (n + 1)) ih
      · rw [outsAt0_B m c ⟨n + 1, h⟩ h0 h1]
        dsimp only
        rw [sout_B, pay3_apply, point_loss, accN_step _ _ h0]
        exact congrArg (· + B m c (n + 1)) ih

/-- At a core's last point the output block holds the accumulator's entry. -/
theorem out_eq (c : Dev nD) (t : Fin cfg0.N) (h1 : t.val % 32 = 31) (j : S1x1x1.Idx) :
    (outsAt0 m c t.val t.isLt).1 j = accN (B m c) t.val := by
  have h0 : ¬t.val % 32 = 0 := by omega
  rw [← acc_eq m c t.val t.isLt, outsAt0_C m c t h0 h1]
  dsimp only
  rw [out_C, sout_C, pay1_apply]

end Cert.KernelIdeal.KVal

end
-- ==== Proof.KernelRun.lean ====
/-
  The kernel's result.

  The output array has one entry per core. Core q's block is written back once, after the core's last point 32 q + 31,
  and holds the accumulator there: the sum of the losses of the core's 32 slabs. After the region the host adds the two
  entries from zero and scales by 2^-13: the result is the sum of all 64 slab losses times 2^-13.
-/
import proofs.«111497_j80590766342735_2_alg».proof.Proof.Gen.KernelIdeal.Frame
import proofs.«111497_j80590766342735_2_alg».proof.Proof.KernelValue
import proofs.«111497_j80590766342735_2_alg».proof.Proof.Spec
import Idealize.ShloMosaic.Lib.Pipeline.Value
import Idealize.ShloMosaic.Lib.StableHlo.Run
import Idealize.ShloMosaic.Lib.Tactic
import Idealize.ShloMosaic.PureOps.Ideal.Laws

noncomputable section

open Idealize.ShloMosaic Idealize.ShloMosaic.TcCoe Idealize.SL.Sem
open Idealize.ShloMosaic.Pipeline (Dat)

namespace Cert.KernelIdeal.KRun

open Cert.KernelIdeal Cert.KernelIdeal.Gen Cert.KernelIdeal.KVal Cert.Spec
open Idealize.ShloMosaic.ValueIdx

variable (m : (ℓ : Loc nD τ sig) → Buf (Elt Ideal) ℓ) (ρ : Dev nD → PrngReg)

/-! ## The output array -/

/-- The output array after the run: entry q is the running sum after core q's last point. -/
def OUT (c : Dev nD) : Buf (Elt Ideal) ((c : Thread nD τ).loc main_v0) :=
  fun i => accN (B m c) (32 * (i 0).val + 31)

/-- The output window's block index at point t is (t / 32, 0, 0). -/
theorem out_idx : ∀ t : Fin cfg0.N, win0_3.index t (0 : Fin 3) = t.val / 32 ∧ win0_3.index t (1 : Fin 3) = 0
    ∧ win0_3.index t (2 : Fin 3) = 0 :=
  (by decide +kernel : ∀ t : Fin grid0.N, _)

/-- What a core's last point writes back is its entry of `OUT`. -/
theorem flushed_eq (c : Dev nD) (t : Fin cfg0.N) (hf : (cfg0.win 3).flush t = true) :
    (dats m 0 c).flushed 3 t = ((cfg0.win 3).blk t).view.read (Elt Ideal) (OUT m c) := by
  have h31 : t.val % 32 = 31 := (flush0_3 t).mp hf
  obtain ⟨e0, e1, e2⟩ := out_idx t
  show (cfg0.win 3).cut (grid0.coords t) ((dats m 0 c).after 3 t) = _
  rw [after0_3]
  funext j
  rw [View.read_apply]
  show (outsAt0 m c t.val t.isLt).1 j = OUT m c (((cfg0.win 3).blk t).view.emb j)
  rw [out_eq m c t h31 j]
  unfold OUT
  refine congrArg (accN (B m c)) ?_
  show t.val = 32 * (win0_3.index t (0 : Fin 3) * 1 + 1 * (j 0).val) + 31
  have hj : (j 0).val < 1 := (j 0).isLt
  omega

/-- An entry of the output array is in point t's block iff each coordinate is in the block's range. -/
theorem mem_blk (t : Fin cfg0.N) (i : S2x1x1.Idx) :
    i ∈ ((cfg0.win 3).blk t).view.set ↔ ∀ a : Fin 3, win0_3.index t a * S1x1x1.size a ≤ (i a).val
      ∧ (i a).val < win0_3.index t a * S1x1x1.size a + S1x1x1.size a := by
  show i ∈ ((View.whole main_v0).slice (win0_3.rect t)).set ↔ _
  rw [View.set_slice_whole, Rect.mem_set_unit]
  exact Iff.rfl

/-- Entry q of the output array is covered by the block of core q's last point. -/
theorem cover (i : S2x1x1.Idx) :
    ∃ t : Fin cfg0.N, (cfg0.win 3).flush t = true ∧ i ∈ ((cfg0.win 3).blk t).view.set := by
  have hi0 : (i 0).val < 2 := (i 0).isLt
  have hi1 : (i 1).val < 1 := (i 1).isLt
  have hi2 : (i 2).val < 1 := (i 2).isLt
  have hN : cfg0.N = 64 := N_0
  have hlt : 32 * (i 0).val + 31 < cfg0.N := by omega
  obtain ⟨e0, e1, e2⟩ := out_idx ⟨32 * (i 0).val + 31, hlt⟩
  have et : (⟨32 * (i 0).val + 31, hlt⟩ : Fin cfg0.N).val = 32 * (i 0).val + 31 := rfl
  refine ⟨⟨32 * (i 0).val + 31, hlt⟩, (flush0_3 _).mpr (by rw [et]; omega), ?_⟩
  rw [mem_blk]
  intro a
  match a with
  | ⟨0, _⟩ =>
    show win0_3.index ⟨32 * (i 0).val + 31, hlt⟩ (0 : Fin 3) * 1 ≤ (i 0).val
      ∧ (i 0).val < win0_3.index ⟨32 * (i 0).val + 31, hlt⟩ (0 : Fin 3) * 1 + 1
    omega
  | ⟨1, _⟩ =>
    show win0_3.index ⟨32 * (i 0).val + 31, hlt⟩ (1 : Fin 3) * 1 ≤ (i 1).val
      ∧ (i 1).val < win0_3.index ⟨32 * (i 0).val + 31, hlt⟩ (1 : Fin 3) * 1 + 1
    omega
  | ⟨2, _⟩ =>
    show win0_3.index ⟨32 * (i 0).val + 31, hlt⟩ (2 : Fin 3) * 1 ≤ (i 2).val
      ∧ (i 2).val < win0_3.index ⟨32 * (i 0).val + 31, hlt⟩ (2 : Fin 3) * 1 + 1
    omega

/-- So the output array ends holding `OUT`. -/
theorem final (c : Dev nD) : (dats m 0 c).arrAt 3 cfg0.N = OUT m c :=
  (dats m 0 c).arrAt_eq_of_cover 3 (OUT m c) (flushed_eq m c) (fun i => cover i)

/-! ## The host's lines after the region -/

/-- The result buffer after the host's sum and scaling, as a function of the output array. -/
def RES (c : Dev nD) : Buf (Elt Ideal) ((c : Thread nD τ).loc main_v2) :=
  mulf (F := Ideal) (Host.reduceAdd (F := Ideal) (OUT m c) (constant (F := Ideal) S_ .f32 0x00000000#32) reducesTo_S2x1x1_S_d0_1_2 h_S_)
    (constant (F := Ideal) S_ .f32 0x39000000#32)

theorem tail_eq (c : Dev nD) :
    Pipeline.afterTail₀ cfgs (dats m) 0 (V0 m) [hostOps1] c main_v2 = RES m c := by
  unfold Pipeline.afterTail₀ RES
  show StableHlo.after hostOps1 _ (Proc.devRef .tc main_v2) = _
  after_results
  rw [show Pipeline.withArrays (cfgs 0).spec c (V0 m c) (fun w => (dats m 0 c).arrAt w (cfgs 0).N) (Proc.devRef .tc main_v0)
      = OUT m c from (Pipeline.withArrays_arr spec0 launch0.win.arr_inj c _ _ 3).trans (final m c)]

/-- THE KERNEL'S RUN, READ: the result buffer at `RES`, the arguments unchanged. -/
theorem run : θ_run defs (onTc (τ := τ) (main (F := Ideal))) ⟨m, fun _ => 0, ρ⟩ fun r => ∀ c : Dev nD,
      r.2.mem ((c : Thread nD τ).loc main_v2) = RES m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v2 (Pipeline.mem_restRefs_of main_v2 (by decide) (by decide))).trans (tail_eq m c),
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).1 0).trans (((dats m 0 c).arrAt_in 0 rfl _).trans ((A_eq m c 0).trans (V_main_arg2 m c)))⟩)
    (run_main m ρ)

/-! ## The result as a number -/

/-- The two cores' entries, as indices of the output array. -/
def coreIdx : Fin 2 ≃ S2x1x1.Idx where
  toFun q := ix3 q (0 : Fin 1) (0 : Fin 1)
  invFun i := i 0
  left_inv q := rfl
  right_inv i := by
    funext a; apply Fin.ext
    match a with
    | ⟨0, _⟩ => rfl
    | ⟨1, _⟩ => show 0 = (i 1).val; have : (i 1).val < 1 := (i 1).isLt; omega
    | ⟨2, _⟩ => show 0 = (i 2).val; have : (i 2).val < 1 := (i 2).isLt; omega

theorem sum_cores (f : S2x1x1.Idx → EReal) :
    ∑ j, f j = f (ix3 (0 : Fin 2) (0 : Fin 1) (0 : Fin 1)) + f (ix3 (1 : Fin 2) (0 : Fin 1) (0 : Fin 1)) := by
  rw [← Equiv.sum_comp coreIdx f, Fin.sum_univ_two]
  rfl

/-- THE KERNEL'S RESULT: all 64 slab losses added, times 2^-13. -/
theorem RES_apply (c : Dev nD) (i : S_.Idx) :
    RES m c i = (∑ n ∈ Finset.range 64, B m c n) * Ideal.ofBits .f32 0x39000000#32 := by
  show Host.reduceAdd (OUT m c) (constant S_ .f32 0x00000000#32) reducesTo_S2x1x1_S_d0_1_2 h_S_ i
    * Ideal.ofBits .f32 0x39000000#32 = _
  refine congrArg (· * Ideal.ofBits .f32 0x39000000#32) ?_
  simp only [Host.reduceAdd, Ideal.hostReduceAdd_def]
  rw [Ideal.hostReduceAdd_total reducesTo_S2x1x1_S_d0_1_2 (fun b => b.elim0) (OUT m c) _ i, sum_cores]
  show Ideal.ofBits .f32 0x00000000#32 + (accN (B m c) (32 * 0 + 31) + accN (B m c) (32 * 1 + 31)) = _
  rw [Ideal.ofBits_zero_f32]
  exact two_cores (B m c)

end Cert.KernelIdeal.KRun

end
-- ==== Proof.RefRead.lean ====
/-
  The reference, read entry by entry at the exact instance.

  The reference works on [64, 128, 10000] arrays: theta and y repeated over the 64 samples, the noise as it is. Read at
  (s, b, d), each of its intermediates is the corresponding quantity of Spec for the row (theta b, y b, noise (s, b)):
  its sums carry a leading zero, which vanishes, and its row maximum is taken once more against -infinity, which
  changes nothing. The result is the sum of all row losses divided by 8192.
-/
import proofs.«111497_j80590766342735_2_alg».proof.Proof.Gen.ReferenceIdeal.Read
import proofs.«111497_j80590766342735_2_alg».proof.Proof.Spec
import proofs.«111497_j80590766342735_2_alg».proof.Proof.Consts
import Idealize.ShloMosaic.Lib.ValueIdx
import Idealize.ShloMosaic.PureOps.Ideal.Laws
import Idealize.ShloMosaic.PureOps.Reduce

noncomputable section

namespace Cert.ReferenceIdeal.RefRead

open Cert.ReferenceIdeal Cert.ReferenceIdeal.Gen Cert.ReferenceIdeal.Read Idealize.ShloMosaic Idealize.ShloMosaic.ValueIdx Cert.Spec

variable (x0 x1 : S128x10000.Idx → EReal) (x2 : S64x128x10000.Idx → EReal)

/-- Row `b` of theta or of y. -/
abbrev r2d (x : S128x10000.Idx → EReal) (b : Fin 128) : Fin 10000 → EReal := fun d => x (ix2 b d)

/-- Row `(s, b)` of the noise. -/
abbrev r3d (x : S64x128x10000.Idx → EReal) (s : Fin 64) (b : Fin 128) : Fin 10000 → EReal := fun d => x (ix3 s b d)

/-! ## The broadcasts' index maps, composed -/

theorem e_v0v3 (s : Fin 64) (b : Fin 128) (d : Fin 10000) : idx_main_v0 (idx_main_v3 (ix3 s b d)) = ix2 b d :=
  funext fun a => Fin.ext (by match a with | ⟨0, _⟩ => rfl | ⟨1, _⟩ => rfl)

theorem e_v16v17 (s : Fin 64) (b : Fin 128) (d : Fin 10000) : idx_main_v16 (idx_main_v17 (ix3 s b d)) = ix2 b d :=
  funext fun a => Fin.ext (by match a with | ⟨0, _⟩ => rfl | ⟨1, _⟩ => rfl)

theorem e_v8v9 (s : Fin 64) (b : Fin 128) (d : Fin 10000) : idx_main_v8 (idx_main_v9 (ix3 s b d)) = ix2 s b :=
  funext fun a => Fin.ext (by match a with | ⟨0, _⟩ => rfl | ⟨1, _⟩ => rfl)

theorem e_v13v14 (s : Fin 64) (b : Fin 128) (d : Fin 10000) : idx_main_v13 (idx_main_v14 (ix3 s b d)) = ix2 s b :=
  funext fun a => Fin.ext (by match a with | ⟨0, _⟩ => rfl | ⟨1, _⟩ => rfl)

theorem e_v12 (s : Fin 64) (b : Fin 128) (k : Fin 10000) : idx_main_v12 (ix2 s b) k = ix3 s b k :=
  funext fun a => Fin.ext (by match a with | ⟨0, _⟩ => rfl | ⟨1, _⟩ => rfl | ⟨2, _⟩ => rfl)

theorem e_v20 (s : Fin 64) (b : Fin 128) (k : Fin 10000) : idx_main_v20 (ix2 s b) k = ix3 s b k :=
  funext fun a => Fin.ext (by match a with | ⟨0, _⟩ => rfl | ⟨1, _⟩ => rfl | ⟨2, _⟩ => rfl)

/-- Reducing along the features: the reduced index `(s, b)` with the coordinate `d` put back is `(s, b, d)`. -/
theorem lift_feat (h : S64x128x10000.Reduces [2] S64x128) (s : Fin 64) (b : Fin 128) (d : Fin (S64x128x10000.size 2)) :
    h.lift (ix2 s b) d = ix3 s b (⟨d.val, d.isLt⟩ : Fin 10000) := by
  funext c; apply Fin.ext
  fin_cases c <;> rfl

/-! ## The stages at an index -/

/-- theta + 1 * noise. -/
theorem v4_at (s : Fin 64) (b : Fin 128) (d : Fin 10000) :
    val_main_v4 (F := Ideal) x0 x2 (ix3 s b d) = eta (r2d x0 b) (r3d x2 s b) d := by
  rw [val_main_v4_apply, val_main_v3_apply, val_main_v0_apply, val_main_v2_apply, val_main_v1_apply, val_main_cst_apply,
    e_v0v3]
  rfl

/-- The maximum along the features, from -infinity. -/
theorem v5_at (s : Fin 64) (b : Fin 128) :
    val_main_v5 (F := Ideal) x0 x2 (ix2 s b) = rowMax (r2d x0 b) (r3d x2 s b) := by
  have hred : S64x128x10000.Reduces [2] S64x128 := by decide
  unfold val_main_v5
  refine (Host.reduce_eq_fold_single (α := Ideal .f32) (FloatOps.maximumf (F := Ideal) (φ := .f32))
    (val_main_v4 (F := Ideal) x0 x2) (val_main_cst_0 (F := Ideal))
    reducesTo_S64x128x10000_S64x128_d2 hred h_S_ (ix2 s b)).trans ?_
  unfold rowMax
  exact congrArg (fun f => Finset.fold max (Ideal.ofBits .f32 0xFF800000#32) f (Finset.univ : Finset (Fin 10000)))
    (funext fun d => (congrArg (val_main_v4 (F := Ideal) x0 x2) (lift_feat hred s b d)).trans (v4_at x0 x2 s b d))

/-- Taking the maximum with -infinity once more changes nothing. -/
theorem v7_at (s : Fin 64) (b : Fin 128) :
    val_main_v7 (F := Ideal) x0 x2 (ix2 s b) = rowMax (r2d x0 b) (r3d x2 s b) := by
  rw [val_main_v7_apply, val_main_v6_apply, val_main_cst_1_apply, v5_at]
  show max (Ideal.ofBits .f32 0xFF800000#32) _ = _
  rw [Cert.Consts.ofBits_negInf]
  exact max_eq_right bot_le

/-- The shifted exponentials. -/
theorem v11_at (s : Fin 64) (b : Fin 128) (d : Fin 10000) :
    val_main_v11 (F := Ideal) x0 x2 (ix3 s b d) = ex (r2d x0 b) (r3d x2 s b) d := by
  rw [val_main_v11_apply, val_main_v10_apply, v4_at, val_main_v9_apply, val_main_v8_apply, e_v8v9, v7_at]
  rfl

/-- Their sum along the features. -/
theorem v12_at (s : Fin 64) (b : Fin 128) :
    val_main_v12 (F := Ideal) x0 x2 (ix2 s b) = ∑ k : Fin 10000, ex (r2d x0 b) (r3d x2 s b) k := by
  rw [val_main_v12_apply, val_main_cst_2_apply]
  show Ideal.ofBits .f32 0x00000000#32 + _ = _
  rw [Ideal.ofBits_zero_f32, zero_add]
  refine Finset.sum_congr rfl fun k _ => ?_
  rw [e_v12, v11_at]

/-- The softmax. -/
theorem v15_at (s : Fin 64) (b : Fin 128) (d : Fin 10000) :
    val_main_v15 (F := Ideal) x0 x2 (ix3 s b d) = prob (r2d x0 b) (r3d x2 s b) d := by
  rw [val_main_v15_apply, v11_at, val_main_v14_apply, val_main_v13_apply, e_v13v14, v12_at]
  rfl

/-- The squared errors. -/
theorem v19_at (s : Fin 64) (b : Fin 128) (d : Fin 10000) :
    val_main_v19 (F := Ideal) x0 x1 x2 (ix3 s b d) = sqErr (r2d x0 b) (r2d x1 b) (r3d x2 s b) d := by
  rw [val_main_v19_apply, val_main_v18_apply, v15_at, val_main_v17_apply, val_main_v16_apply, e_v16v17]
  rfl

/-- The row losses. -/
theorem v22_at (s : Fin 64) (b : Fin 128) :
    val_main_v22 (F := Ideal) x0 x1 x2 (ix2 s b) = rowLoss (r2d x0 b) (r2d x1 b) (r3d x2 s b) := by
  rw [val_main_v22_apply, val_main_v20_apply, val_main_cst_3_apply, val_main_v21_apply, val_main_cst_4_apply]
  show Ideal.div (Ideal.ofBits .f32 0x00000000#32 + _) (Ideal.ofBits .f32 0x461C4000#32) = _
  rw [Ideal.ofBits_zero_f32, zero_add]
  unfold rowLoss
  refine congrArg (fun z => Ideal.div z (Ideal.ofBits .f32 0x461C4000#32)) (Finset.sum_congr rfl fun k _ => ?_)
  rw [e_v20, v19_at]

/-- THE REFERENCE'S RESULT: all 64 slab losses added, divided by 8192. -/
theorem result_at (i : S_.Idx) :
    val_main_v24 (F := Ideal) x0 x1 x2 i
      = Ideal.div (∑ n ∈ Finset.range 64, slabLoss x0 x1 x2 n) (Ideal.ofBits .f32 0x46000000#32) := by
  rw [val_main_v24_apply, val_main_v23_apply, val_main_cst_5_apply, val_main_cst_6_apply]
  show Ideal.div (Ideal.ofBits .f32 0x00000000#32 + _) (Ideal.ofBits .f32 0x46000000#32) = _
  rw [Ideal.ofBits_zero_f32, zero_add, sum_slabs, sum_idx2]
  refine congrArg (fun z => Ideal.div z (Ideal.ofBits .f32 0x46000000#32))
    (Finset.sum_congr rfl fun s _ => Finset.sum_congr rfl fun b _ => ?_)
  exact v22_at x0 x1 x2 s b

end Cert.ReferenceIdeal.RefRead

end
-- ==== Proof.lean ====
/-
  Perturbed-softmax loss: the kernel against its jnp reference, over the extended reals.

  Both programs compute, for 64 noise samples s and 128 batch entries b, the row loss
      L(s, b) = (1 / 10000) * sum over d of (softmax_d (theta b + 1 * noise (s, b)) - y b d)^2,
  the softmax taken with the row maximum subtracted. The reference returns (sum over (s, b) of L(s, b)) / 8192. The
  kernel runs a 2 x 32 grid: point 32 c + s reads noise slab 32 c + s, adds sum over b of L to a one-entry
  accumulator that is reset at each core's first point, and copies the accumulator to the core's output entry at its
  last point; the host then adds the two entries and multiplies by 2^-13.

  The two results are the same extended real: the sums differ only in grouping (addition of extended reals is
  commutative and associative), the reference's extra maximum against -infinity is the identity, and multiplying by
  2^-13 is dividing by 8192. No entry needs to be finite for this, so the precondition is not opened.

  Modules: Spec (the row loss, the restarting running sum), Consts (the three literals read as numbers), Pieces (what
  one grid point stores), RowRead (the body's arithmetic at an entry), KernelValue (the accumulator point by point),
  KernelRun (the output array, the host's tail, the kernel's run), RefRead (the reference at an entry).
  The idealized kernel is the kernel's own text read over the extended reals, so `preserves` is trivial.
-/
import proofs.«111497_j80590766342735_2_alg».proof.Defs
import proofs.«111497_j80590766342735_2_alg».proof.Proof.Gen.Kernel
import proofs.«111497_j80590766342735_2_alg».proof.Proof.Gen.Kernel.Frame
import proofs.«111497_j80590766342735_2_alg».proof.Proof.Gen.KernelIdeal
import proofs.«111497_j80590766342735_2_alg».proof.Proof.Gen.KernelIdeal.Frame
import proofs.«111497_j80590766342735_2_alg».proof.Proof.Gen.ReferenceIdeal
import proofs.«111497_j80590766342735_2_alg».proof.Proof.Gen.Pre_finite_inputs
import proofs.«111497_j80590766342735_2_alg».proof.Proof.Gen.ReferenceIdeal.Run
import proofs.«111497_j80590766342735_2_alg».proof.Proof.Gen.ReferenceIdeal.Read
import proofs.«111497_j80590766342735_2_alg».proof.Proof.Consts
import proofs.«111497_j80590766342735_2_alg».proof.Proof.KernelRun
import proofs.«111497_j80590766342735_2_alg».proof.Proof.RefRead
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does the kernel read at the exact instance. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- From arguments that agree, the kernel ends at (sum of the 64 slab losses) * 2^-13 and the reference at
    (the same sum) / 8192: one extended real. -/
theorem algebraic : Cert.algebraic_KernelIdeal_ReferenceIdeal := by
  intro m ρ m' ρ' _ hagree
  refine ⟨fun c => Cert.KernelIdeal.KRun.RES m c, Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2.1, (hagree c).2.2]
  funext i
  rw [Cert.ReferenceIdeal.RefRead.result_at]
  refine Eq.trans ?_ (Cert.KernelIdeal.KRun.RES_apply m c i).symm
  exact (Cert.Consts.mul_inv8192_eq_div _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
